-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S64x128 .f32) (main_arg7 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x64 .f32) (main_arg3 : FVec F S64 .f32) (main_arg4 : FVec F S64x128 .f32) (main_arg5 : FVec F S128 .f32) (main_arg6 : FVec F S64x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩
abbrev S1x128 : Shape := ⟨2, ![1, 128]⟩
abbrev S850000x128 : Shape := ⟨2, ![850000, 128]⟩

abbrev nBuf : Space → Nat
  | .hbm => 83
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x64, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x64, .f32⟩
  | .hbm, ⟨54, _⟩ => ⟨S850000x1, .f32⟩
  | .hbm, ⟨55, _⟩ => ⟨S850000x64, .f32⟩
  | .hbm, ⟨56, _⟩ => ⟨S850000x64, .f32⟩
  | .hbm, ⟨57, _⟩ => ⟨S_, .f32⟩
  | .hbm, ⟨58, _⟩ => ⟨S50000x64, .f32⟩
  | .hbm, ⟨59, _⟩ => ⟨S850000x1, .i32⟩
  | .hbm, ⟨60, _⟩ => ⟨S50000x64, .f32⟩
  | .hbm, ⟨61, _⟩ => ⟨S1x64, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x128, .f32⟩
  | .hbm, ⟨74, _⟩ => ⟨S850000x1, .f32⟩
  | .hbm, ⟨75, _⟩ => ⟨S850000x128, .f32⟩
  | .hbm, ⟨76, _⟩ => ⟨S850000x128, .f32⟩
  | .hbm, ⟨77, _⟩ => ⟨S_, .f32⟩
  | .hbm, ⟨78, _⟩ => ⟨S50000x128, .f32⟩
  | .hbm, ⟨79, _⟩ => ⟨S850000x1, .i32⟩
  | .hbm, ⟨80, _⟩ => ⟨S50000x128, .f32⟩
  | .hbm, ⟨81, _⟩ => ⟨S1x128, .f32⟩
  | .hbm, ⟨82, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x128, .f32⟩
  | .local _ .vmem, ⟨9, _⟩ => ⟨S1x128, .f32⟩
  | .local _ .vmem, ⟨10, _⟩ => ⟨S64x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45_0 : Ref sig .tc := ⟨.hbm, 63, rfl⟩
abbrev main_v45_1 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S128_S1x128 : S128.ShapeCasts S1x128
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x128_S5000x128_1_0_0_1_n_n_wf : DotDims.WF S5000x64 S64x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v45_1) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45_0) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v60) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S50000x64 : Shape := ⟨2, ![50000, 64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S1x128 : Shape := ⟨2, ![1, 128]⟩
abbrev S850000x128 : Shape := ⟨2, ![850000, 128]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x64, .f32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x64, .f32⟩
  | .hbm, ⟨54, _⟩ => ⟨S850000x1, .f32⟩
  | .hbm, ⟨55, _⟩ => ⟨S850000x64, .f32⟩
  | .hbm, ⟨56, _⟩ => ⟨S850000x64, .f32⟩
  | .hbm, ⟨57, _⟩ => ⟨S_, .f32⟩
  | .hbm, ⟨58, _⟩ => ⟨S50000x64, .f32⟩
  | .hbm, ⟨59, _⟩ => ⟨S850000x1, .i32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S50000x64, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x64, .f32⟩
  | .hbm, ⟨70, _⟩ => ⟨S50000x64, .f32⟩
  | .hbm, ⟨71, _⟩ => ⟨S50000x128, .f32⟩
  | .hbm, ⟨72, _⟩ => ⟨S50000, .i32⟩
  | .hbm, ⟨73, _⟩ => ⟨S850000, .i32⟩
  | .hbm, ⟨74, _⟩ => ⟨S850000, .i32⟩
  | .hbm, ⟨75, _⟩ => ⟨S_, .f32⟩
  | .hbm, ⟨76, _⟩ => ⟨S850000, .f32⟩
  | .hbm, ⟨77, _⟩ => ⟨S_, .f32⟩
  | .hbm, ⟨78, _⟩ => ⟨S50000, .f32⟩
  | .hbm, ⟨79, _⟩ => ⟨S850000x1, .i32⟩
  | .hbm, ⟨80, _⟩ => ⟨S50000, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S50000, .f32⟩
  | .hbm, ⟨85, _⟩ => ⟨S_, .i32⟩
  | .hbm, ⟨86, _⟩ => ⟨S850000, .i32⟩
  | .hbm, ⟨87, _⟩ => ⟨S850000, .i1⟩
  | .hbm, ⟨88, _⟩ => ⟨S_, .i32⟩
  | .hbm, ⟨89, _⟩ => ⟨S850000, .i32⟩
  | .hbm, ⟨90, _⟩ => ⟨S850000, .i32⟩
  | .hbm, ⟨91, _⟩ => ⟨S850000, .i32⟩
  | .hbm, ⟨92, _⟩ => ⟨S850000x1, .i32⟩
  | .hbm, ⟨93, _⟩ => ⟨S850000, .f32⟩
  | .hbm, ⟨94, _⟩ => ⟨S_, .i32⟩
  | .hbm, ⟨95, _⟩ => ⟨S850000, .i32⟩
  | .hbm, ⟨96, _⟩ => ⟨S850000, .i1⟩
  | .hbm, ⟨97, _⟩ => ⟨S_, .i32⟩
  | .hbm, ⟨98, _⟩ => ⟨S850000, .i32⟩
  | .hbm, ⟨99, _⟩ => ⟨S850000, .i32⟩
  | .hbm, ⟨100, _⟩ => ⟨S850000, .i32⟩
  | .hbm, ⟨101, _⟩ => ⟨S850000x1, .i32⟩
  | .hbm, ⟨102, _⟩ => ⟨S850000, .f32⟩
  | .hbm, ⟨103, _⟩ => ⟨S850000, .f32⟩
  | .hbm, ⟨104, _⟩ => ⟨S_, .i32⟩
  | .hbm, ⟨105, _⟩ => ⟨S850000, .i32⟩
  | .hbm, ⟨106, _⟩ => ⟨S850000, .i1⟩
  | .hbm, ⟨107, _⟩ => ⟨S_, .i32⟩
  | .hbm, ⟨108, _⟩ => ⟨S850000, .i32⟩
  | .hbm, ⟨109, _⟩ => ⟨S850000, .i32⟩
  | .hbm, ⟨110, _⟩ => ⟨S850000, .i32⟩
  | .hbm, ⟨111, _⟩ => ⟨S850000x1, .i32⟩
  | .hbm, ⟨112, _⟩ => ⟨S850000x128, .f32⟩
  | .hbm, ⟨113, _⟩ => ⟨S850000x1, .f32⟩
  | .hbm, ⟨114, _⟩ => ⟨S850000x128, .f32⟩
  | .hbm, ⟨115, _⟩ => ⟨S850000x128, .f32⟩
  | .hbm, ⟨116, _⟩ => ⟨S_, .f32⟩
  | .hbm, ⟨117, _⟩ => ⟨S50000x128, .f32⟩
  | .hbm, ⟨118, _⟩ => ⟨S850000x1, .i32⟩
  | .hbm, ⟨119, _⟩ => ⟨S50000x128, .f32⟩
  | .hbm, ⟨120, _⟩ => ⟨S1x128, .f32⟩
  | .hbm, ⟨121, _⟩ => ⟨S50000x128, .f32⟩
  | .hbm, ⟨122, _⟩ => ⟨S50000x128, .f32⟩
  | .hbm, ⟨123, _⟩ => ⟨S50000x128, .f32⟩
  | .hbm, ⟨124, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_cst : Ref sig .tc := ⟨.hbm, 68, rfl⟩
abbrev main_call0_v0 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_11 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_13 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_15 : Ref sig .tc := ⟨.hbm, 104, rfl⟩
abbrev main_v77 : Ref sig .tc := ⟨.hbm, 105, rfl⟩
abbrev main_v78 : Ref sig .tc := ⟨.hbm, 106, rfl⟩
abbrev main_c_16 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_17 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  dot_S50000x128_S128x64_S50000x64_1_0_0_1_n_n_wf : DotDims.WF S50000x128 S128x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run with its result named.

  The program is three grid regions between stretches of host operations.  Every weakly fair execution ends with the
  argument arrays as launched and with the result array at what the last region's write-backs leave: the last boundary's
  contents, read at the result's buffer.
-/
import proofs.«156356_j46986942218444_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last boundary's
    contents and the argument arrays end as launched. -/
theorem run_value : θ_run defs (onTc (τ := τ) (main (F := F))) ⟨m, fun _ => 0, ρ⟩ (fun r => ∀ c : Dev nD,
      r.2.mem ((c.tc : Thread nD τ).loc main_v60) = W6 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v60 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Run

end
-- ==== Proof.LibMatmulRows.lean ====
/-
  A matrix product into a zero accumulator, read at an index at the ideal values, for operands of any float formats.

  At the ideal values a float is an extended real whatever its format, so a product whose operands were first rounded to a
  narrower format is still the plain sum over the contraction coordinate: for any dimension numbers that contract the
  left operand's columns with the right operand's rows, [n, K] × [K, F] at (p, f) is the sum over k of left (p, k) times
  right (k, f).
-/
import Idealize.ShloMosaic.PureOps.Ideal
import Idealize.ShloMosaic.PureOps.Ideal.Laws
import Idealize.ShloMosaic.Lib.ValueIdx

noncomputable section

open scoped BigOperators

namespace Cert.LibMatmulRows

open Idealize.ShloMosaic Idealize.ShloMosaic.ValueIdx

/-- At the ideal values a matrix product [n, K] × [K, F] into the zero accumulator reads, at (p, f), the sum over the
    contraction coordinate k of left (p, k) times right (k, f), whatever the operands' float formats — for any dimension
    numbers with one contracted axis of extent K whose operand indices are the rows of the left operand and the columns
    of the right one (the four coordinate facts, which compute on a literal record). -/
theorem matmul_rows_apply {n K F : ℕ} {φ₁ φ₂ : FTy} (D : DotDims ⟨2, ![n, K]⟩ ⟨2, ![K, F]⟩ ⟨2, ![n, F]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (l : FVec Ideal ⟨2, ![n, K]⟩ φ₁) (r : FVec Ideal ⟨2, ![K, F]⟩ φ₂)
    (p : Fin n) (f : Fin F) :
    matmul D prec l r (constant ⟨2, ![n, F]⟩ .f32 0x00000000#32) (ix2 p f) = ∑ k : Fin K, l (ix2 p k) * r (ix2 k f) := by
  refine (Ideal.matmul_constant_zero_apply D prec l r (ix2 p f)).trans ?_
  rw [← Equiv.sum_comp (contrEquiv1 D K hr hs).symm]
  refine Finset.sum_congr rfl fun k _ => ?_
  have hk := contrEquiv1_symm_val D K hr hs k
  have el : D.lhsIdx (ix2 p f) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p f) ((contrEquiv1 D K hr hs).symm k) = ix2 k f := funext fun ax => Fin.ext (by
    match ax with
    | ⟨0, _⟩ => exact (hr0 _ _).trans hk
    | ⟨1, _⟩ => exact hr1 _ _)
  rw [el, er]

end Cert.LibMatmulRows

end
-- ==== Proof.Spec.lean ====
/-
  The mathematics both programs compute, stated once over extended-real matrices.

  A matrix [a, b] is a function from its index pairs to the extended reals.  The three building blocks are the matrix
  product (entry (p, o) is the sum over k of left (p, k) times right (k, o)), a row vector added to every row, and the
  positive part.  Sums and products of extended reals are used only through commutative-monoid laws, so no entry is
  assumed finite.
-/
import Idealize.ShloMosaic.PureOps.Ideal
import Idealize.ShloMosaic.Lib.ValueIdx

noncomputable section

open scoped BigOperators

namespace Cert.Spec

open Idealize.ShloMosaic Idealize.ShloMosaic.ValueIdx

/-- An [a, b] matrix of extended reals. -/
abbrev Mat (a b : ℕ) : Type := (⟨2, ![a, b]⟩ : Shape).Idx → EReal

/-- The matrix product: entry (p, o) is the sum over k of A (p, k) * B (k, o). -/
def mm {n K d : ℕ} (A : Mat n K) (B : Mat K d) : Mat n d :=
  fun i => ∑ k : Fin K, A (ix2 (i 0) k) * B (ix2 k (i 1))

theorem mm_ix2 {n K d : ℕ} (A : Mat n K) (B : Mat K d) (p : Fin n) (o : Fin d) :
    mm A B (ix2 p o) = ∑ k : Fin K, A (ix2 p k) * B (ix2 k o) := rfl

/-- A one-row matrix added to every row. -/
def addRow {n d : ℕ} (A : Mat n d) (r : Mat 1 d) : Mat n d :=
  fun i => A i + r (ix2 (0 : Fin 1) (i 1))

theorem addRow_ix2 {n d : ℕ} (A : Mat n d) (r : Mat 1 d) (p : Fin n) (o : Fin d) :
    addRow A r (ix2 p o) = A (ix2 p o) + r (ix2 (0 : Fin 1) o) := rfl

/-- The positive part, entry by entry: the larger of the entry and the number the zero word denotes. -/
def relu {n d : ℕ} (A : Mat n d) : Mat n d :=
  fun i => max (A i) (Ideal.ofBits .f32 0x00000000#32)

theorem relu_ix2 {n d : ℕ} (A : Mat n d) (p : Fin n) (o : Fin d) :
    relu A (ix2 p o) = max (A (ix2 p o)) (Ideal.ofBits .f32 0x00000000#32) := rfl

/-- Equal arguments give equal values, for functions of three and of four arguments. -/
theorem congr3 {α β γ δ : Sort _} (f : α → β → γ → δ) {a a' : α} {b b' : β} {c c' : γ}
    (ha : a = a') (hb : b = b') (hc : c = c') : f a b c = f a' b' c' := by
  subst ha hb hc; rfl

theorem congr4 {α β γ δ ε : Sort _} (f : α → β → γ → δ → ε) {a a' : α} {b b' : β} {c c' : γ} {d d' : δ}
    (ha : a = a') (hb : b = b') (hc : c = c') (hd : d = d') : f a b c d = f a' b' c' d' := by
  subst ha hb hc hd; rfl

/-- A vector as a one-row matrix. -/
def rowOf {d : ℕ} (b : (⟨1, ![d]⟩ : Shape).Idx → EReal) : Mat 1 d := fun y => b (ix1 (y 1))

/-- The residual linear branch: (A + b) W + c, the row vectors b and c added to every row. -/
def residual {n h d : ℕ} (A : Mat n h) (b : Mat 1 h) (W : Mat h d) (c : Mat 1 d) : Mat n d :=
  addRow (mm (addRow A b) W) c

/-- The second layer's linear transform of the activated hidden features: relu (A + b) W. -/
def hidden {n h d : ℕ} (A : Mat n h) (b : Mat 1 h) (W : Mat h d) : Mat n d :=
  mm (relu (addRow A b)) W

/-- The last sum: ((A + b) + X) + Y, the row vector b added to every row. -/
def combine {n d : ℕ} (A : Mat n d) (b : Mat 1 d) (X Y : Mat n d) : Mat n d :=
  fun i => addRow A b i + X i + Y i

theorem combine_ix2 {n d : ℕ} (A : Mat n d) (b : Mat 1 d) (X Y : Mat n d) (p : Fin n) (o : Fin d) :
    combine A b X Y (ix2 p o) = A (ix2 p o) + b (ix2 (0 : Fin 1) o) + X (ix2 p o) + Y (ix2 p o) := rfl

/-! ## Row blocks: ten blocks of 5000 consecutive rows tile the 50000 rows

  Each building block acts row by row (a product's row depends on the same row of its left factor only), so taking a
  block of rows commutes with it: the block of the result is the result on the block. -/

/-- Row p of block t of a 50000-row matrix. -/
def rowAt (t : ℕ) (ht : t < 10) (p : Fin 5000) : Fin 50000 := ⟨t * 5000 + p.val, by have := p.isLt; omega⟩

/-- Block t: rows 5000 t … 5000 t + 4999. -/
def blkRows (t : ℕ) (ht : t < 10) {d : ℕ} (A : Mat 50000 d) : Mat 5000 d :=
  fun y => A (ix2 (rowAt t ht (y 0)) (y 1))

theorem mm_blk (t : ℕ) (ht : t < 10) {K d : ℕ} (A : Mat 50000 K) (B : Mat K d) :
    mm (blkRows t ht A) B = blkRows t ht (mm A B) := rfl

theorem addRow_blk (t : ℕ) (ht : t < 10) {d : ℕ} (A : Mat 50000 d) (r : Mat 1 d) :
    addRow (blkRows t ht A) r = blkRows t ht (addRow A r) := rfl

theorem relu_blk (t : ℕ) (ht : t < 10) {d : ℕ} (A : Mat 50000 d) :
    relu (blkRows t ht A) = blkRows t ht (relu A) := rfl

/-- A product computed block by block is a block of the whole product. -/
theorem mm_of_blocks (t : ℕ) (ht : t < 10) {K d : ℕ} {A : Mat 50000 K} {B : Mat K d} {a0 : Mat 5000 K} {a1 : Mat K d}
    {g : Mat 50000 d → Mat 5000 d} (h0 : a0 = blkRows t ht A) (h1 : a1 = B) (hg : ∀ G, g G = blkRows t ht G) :
    mm a0 a1 = g (mm A B) := by
  subst h0 h1; rw [hg]; rfl

theorem residual_of_blocks (t : ℕ) (ht : t < 10) {h d : ℕ} {A : Mat 50000 h} {b : Mat 1 h} {W : Mat h d} {c : Mat 1 d}
    {a0 : Mat 5000 h} {a1 : Mat 1 h} {a2 : Mat h d} {a3 : Mat 1 d} {g : Mat 50000 d → Mat 5000 d}
    (h0 : a0 = blkRows t ht A) (h1 : a1 = b) (h2 : a2 = W) (h3 : a3 = c) (hg : ∀ G, g G = blkRows t ht G) :
    residual a0 a1 a2 a3 = g (residual A b W c) := by
  subst h0 h1 h2 h3; rw [hg]; rfl

theorem hidden_of_blocks (t : ℕ) (ht : t < 10) {h d : ℕ} {A : Mat 50000 h} {b : Mat 1 h} {W : Mat h d}
    {a0 : Mat 5000 h} {a1 : Mat 1 h} {a2 : Mat h d} {g : Mat 50000 d → Mat 5000 d}
    (h0 : a0 = blkRows t ht A) (h1 : a1 = b) (h2 : a2 = W) (hg : ∀ G, g G = blkRows t ht G) :
    hidden a0 a1 a2 = g (hidden A b W) := by
  subst h0 h1 h2; rw [hg]; rfl

theorem combine_of_blocks (t : ℕ) (ht : t < 10) {d : ℕ} {A : Mat 50000 d} {b : Mat 1 d} {X Y : Mat 50000 d}
    {a0 : Mat 5000 d} {a1 : Mat 1 d} {a2 a3 : Mat 5000 d} {g : Mat 50000 d → Mat 5000 d}
    (h0 : a0 = blkRows t ht A) (h1 : a1 = b) (h2 : a2 = blkRows t ht X) (h3 : a3 = blkRows t ht Y)
    (hg : ∀ G, g G = blkRows t ht G) :
    combine a0 a1 a2 a3 = g (combine A b X Y) := by
  subst h0 h1 h2 h3; rw [hg]; rfl

/-- Row r lies in block r / 5000, at row r % 5000 of it. -/
theorem row_block (r : ℕ) (hr : r < 50000) : r / 5000 < 10 ∧ r / 5000 * 5000 ≤ r ∧ r < r / 5000 * 5000 + 5000 := by
  omega

end Cert.Spec

end
-- ==== Proof.Payloads.lean ====
/-
  What each kernel body stores, read at an entry, at the ideal values.

  Every body loads whole blocks, computes, and stores whole blocks.  At the ideal values a change of float format is the
  identity, so a product of operands rounded to a narrower format is the plain matrix product of the loaded blocks; a
  one-row block broadcast over the rows contributes its entry of the same column.  Each stored block is therefore the
  specification's function of the loaded blocks, entry by entry.
-/
import proofs.«156356_j46986942218444_1_alg».proof.Proof.Gen.KernelIdeal.Skeleton
import proofs.«156356_j46986942218444_1_alg».proof.Proof.LibMatmulRows
import proofs.«156356_j46986942218444_1_alg».proof.Proof.Spec
import Idealize.ShloMosaic.Lib.ValueLayout
import Idealize.ShloMosaic.Lib.Pipeline.Value

noncomputable section

open scoped BigOperators

namespace Cert.KernelIdeal.Pay

open Cert.KernelIdeal Cert.KernelIdeal.Gen Cert.Spec
open Idealize.ShloMosaic Idealize.ShloMosaic.ValueIdx

/-! ## The two contraction records: rows of the left operand against columns of the right one -/

theorem d128_l0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem d128_r1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl
theorem d64_l0 (j : S5000x128.Idx) (q : dot_S5000x64_S64x128_S5000x128_1_0_0_1_n_n.contr.Idx) :
    (dot_S5000x64_S64x128_S5000x128_1_0_0_1_n_n.lhsIdx j q 0).val = (j 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem d64_r1 (j : S5000x128.Idx) (q : dot_S5000x64_S64x128_S5000x128_1_0_0_1_n_n.contr.Idx) :
    (dot_S5000x64_S64x128_S5000x128_1_0_0_1_n_n.rhsIdx j q 1).val = (j 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The [5000, 128] × [128, 64] product into the zero accumulator is the specification's product, for operands of any
    float formats. -/
theorem matmul128 {φ₁ φ₂ : FTy} (l : FVec Ideal S5000x128 φ₁) (r : FVec Ideal S128x64 φ₂) (p : Fin 5000) (o : Fin 64) :
    matmul dot_S5000x128_S128x64_S5000x64_1_0_0_1_n_n none l r (constant S5000x64 .f32 0x00000000#32) (ix2 p o)
      = ∑ k : Fin 128, l (ix2 p k) * r (ix2 k o) :=
  Cert.LibMatmulRows.matmul_rows_apply dot_S5000x128_S128x64_S5000x64_1_0_0_1_n_n rfl rfl d128_l0
    (fun j q => dot_S5000x128_S128x64_S5000x64_1_0_0_1_n_n.lhsIdx_val_of_single rfl j q)
    (fun j q => dot_S5000x128_S128x64_S5000x64_1_0_0_1_n_n.rhsIdx_val_of_single rfl j q) d128_r1 none l r p o

/-- The [5000, 64] × [64, 128] product into the zero accumulator is the specification's product, for operands of any
    float formats. -/
theorem matmul64 {φ₁ φ₂ : FTy} (l : FVec Ideal S5000x64 φ₁) (r : FVec Ideal S64x128 φ₂) (p : Fin 5000) (o : Fin 128) :
    matmul dot_S5000x64_S64x128_S5000x128_1_0_0_1_n_n none l r (constant S5000x128 .f32 0x00000000#32) (ix2 p o)
      = ∑ k : Fin 64, l (ix2 p k) * r (ix2 k o) :=
  Cert.LibMatmulRows.matmul_rows_apply dot_S5000x64_S64x128_S5000x128_1_0_0_1_n_n rfl rfl d64_l0
    (fun j q => dot_S5000x64_S64x128_S5000x128_1_0_0_1_n_n.lhsIdx_val_of_single rfl j q)
    (fun j q => dot_S5000x64_S64x128_S5000x128_1_0_0_1_n_n.rhsIdx_val_of_single rfl j q) d64_r1 none l r p o

/-! ## The first region: a block of rows times the whole weight matrix -/

theorem pay0 (x0 : Vec Ideal S5000x128 .f32) (x1 : Vec Ideal S128x64 .f32) (p : Fin 5000) (o : Fin 64) :
    k0_pay1 (F := Ideal) x0 x1 (ix2 p o) = mm x0 x1 (ix2 p o) := by
  unfold k0_pay1
  exact matmul128 _ _ p o

/-! ## The second region: bias, both products -/

/-- The biased hidden block. -/
theorem pay1_bias (x0 : Vec Ideal S5000x64 .f32) (x1 : Vec Ideal S1x64 .f32) (p : Fin 5000) (k : Fin 64) :
    k1_pay1 (F := Ideal) x0 x1 (ix2 p k) = addRow x0 x1 (ix2 p k) := by
  unfold k1_pay1
  show shapeCast S5000x64 x0 shapeCasts_S5000x64_S5000x64 (ix2 p k)
      + broadcastTo S5000x64 (shapeCast S1x64 x1 shapeCasts_S1x64_S1x64) broadcasts_S1x64_S5000x64 (ix2 p k) = _
  rw [shapeCast_self, shapeCast_self, broadcastTo_1b_ab_apply]
  rfl

/-- The residual branch's block. -/
theorem pay1_res (x0 : Vec Ideal S5000x64 .f32) (x1 : Vec Ideal S1x64 .f32) (x2 : Vec Ideal S64x128 .f32)
    (x3 : Vec Ideal S1x128 .f32) (p : Fin 5000) (o : Fin 128) :
    k1_pay2 (F := Ideal) x0 x1 x2 x3 (ix2 p o) = residual x0 x1 x2 x3 (ix2 p o) := by
  unfold k1_pay2
  show matmul dot_S5000x64_S64x128_S5000x128_1_0_0_1_n_n none (truncf .bf16 (k1_pay1 x0 x1) bitsLt_bf16_f32)
        (truncf .bf16 x2 bitsLt_bf16_f32) (constant S5000x128 .f32 0x00000000#32) (ix2 p o)
      + broadcastTo S5000x128 (shapeCast S1x128 x3 shapeCasts_S1x128_S1x128) broadcasts_S1x128_S5000x128 (ix2 p o) = _
  rw [matmul64, shapeCast_self, broadcastTo_1b_ab_apply]
  show (∑ k : Fin 64, k1_pay1 x0 x1 (ix2 p k) * x2 (ix2 k o)) + x3 (ix2 (0 : Fin 1) o) = _
  simp only [pay1_bias]
  rfl

/-- The second layer's pre-aggregation block. -/
theorem pay1_hid (x0 : Vec Ideal S5000x64 .f32) (x1 : Vec Ideal S1x64 .f32) (x2 : Vec Ideal S64x128 .f32)
    (p : Fin 5000) (o : Fin 128) :
    k1_pay3 (F := Ideal) x0 x1 x2 (ix2 p o) = hidden x0 x1 x2 (ix2 p o) := by
  unfold k1_pay3
  show matmul dot_S5000x64_S64x128_S5000x128_1_0_0_1_n_n none
        (truncf .bf16 (maximumf (k1_pay1 x0 x1) (broadcast S5000x64 (Scalar.ofBits .f32 0x00000000#32))) bitsLt_bf16_f32)
        (truncf .bf16 x2 bitsLt_bf16_f32) (constant S5000x128 .f32 0x00000000#32) (ix2 p o) = _
  rw [matmul64]
  show (∑ k : Fin 64, max (k1_pay1 x0 x1 (ix2 p k)) (Ideal.ofBits .f32 0x00000000#32) * x2 (ix2 k o)) = _
  simp only [pay1_bias]
  rfl

/-! ## The third region: the last sum -/

theorem pay2 (x0 : Vec Ideal S5000x128 .f32) (x1 : Vec Ideal S1x128 .f32) (x2 x3 : Vec Ideal S5000x128 .f32)
    (p : Fin 5000) (o : Fin 128) :
    k2_pay1 (F := Ideal) x0 x1 x2 x3 (ix2 p o) = combine x0 x1 x2 x3 (ix2 p o) := by
  unfold k2_pay1
  show shapeCast S5000x128 x0 shapeCasts_S5000x128_S5000x128 (ix2 p o)
      + broadcastTo S5000x128 (shapeCast S1x128 x1 shapeCasts_S1x128_S1x128) broadcasts_S1x128_S5000x128 (ix2 p o)
      + x2 (ix2 p o) + shapeCast S5000x128 x3 shapeCasts_S5000x128_S5000x128 (ix2 p o) = _
  rw [shapeCast_self, shapeCast_self, shapeCast_self, broadcastTo_1b_ab_apply]
  rfl

end Cert.KernelIdeal.Pay

end
-- ==== Proof.Region0.lean ====
/-
  The first region: the node features times the first layer's weights, ten blocks of 5000 rows at a time.

  At point t the body multiplies rows 5000 t … 5000 t + 4999 of the feature matrix by the whole weight matrix and writes
  the same rows of the result.  A row of a product depends on that row of the left factor only, so the ten written
  blocks are the blocks of the one whole product, and they tile the result.
-/
import proofs.«156356_j46986942218444_1_alg».proof.Proof.Gen.KernelIdeal.Frame
import proofs.«156356_j46986942218444_1_alg».proof.Proof.Payloads

set_option maxRecDepth 16384

noncomputable section

namespace Cert.KernelIdeal.Reg0

open Cert.KernelIdeal Cert.KernelIdeal.Gen Cert.Spec
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The grid has ten points. -/
theorem lt_ten (t : Fin cfg0.N) : t.val < 10 := by
  have h : t.val < grid0.N := t.isLt
  rw [N_0] at h; exact h

/-- The printed index maps, decided over the ten grid points: a row-blocked window's block index is (t, 0), a window
    that holds its whole array stays at block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block at point t holds rows 5000 t … 5000 t + 4999 of its array. -/
theorem emb0 (t : Fin cfg0.N) (y : S5000x128.Idx) :
    ((cfg0.win 0).blk t).view.emb y = ix2 (rowAt t.val (lt_ten t) (y 0)) (y 1) := by
  obtain ⟨e00, e01, e10, e11, e20, e21⟩ := index_maps t
  funext a; apply Fin.ext
  match a with
  | ⟨0, _⟩ => show win0_0.index t (0 : Fin 2) * 5000 + 1 * (y 0).val = t.val * 5000 + (y 0).val; omega
  | ⟨1, _⟩ => show win0_0.index t (1 : Fin 2) * 128 + 1 * (y 1).val = (y 1).val; omega

/-- Window 1's block is its whole array at every point. -/
theorem emb1 (t : Fin cfg0.N) (y : S128x64.Idx) : ((cfg0.win 1).blk t).view.emb y = y := by
  obtain ⟨e00, e01, e10, e11, e20, e21⟩ := index_maps t
  funext a; apply Fin.ext
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- Window 2's block at point t holds rows 5000 t … 5000 t + 4999 of its array. -/
theorem emb2 (t : Fin cfg0.N) (y : S5000x64.Idx) :
    ((cfg0.win 2).blk t).view.emb y = ix2 (rowAt t.val (lt_ten t) (y 0)) (y 1) := by
  obtain ⟨e00, e01, e10, e11, e20, e21⟩ := index_maps t
  funext a; apply Fin.ext
  match a with
  | ⟨0, _⟩ => show win0_2.index t (0 : Fin 2) * 5000 + 1 * (y 0).val = t.val * 5000 + (y 0).val; omega
  | ⟨1, _⟩ => show win0_2.index t (1 : Fin 2) * 64 + 1 * (y 1).val = (y 1).val; omega

theorem in0 (c : Dev nD) (t : Fin cfg0.N) :
    (iblk0 V c 0 t : Mat 5000 128) = blkRows t.val (lt_ten t) (V c main_arg0) :=
  funext fun y => congrArg (V c main_arg0) (emb0 t y)

theorem in1 (c : Dev nD) (t : Fin cfg0.N) : (iblk0 V c 1 t : Mat 128 64) = V c main_arg2 :=
  funext fun y => congrArg (V c main_arg2) (emb1 t y)

/-- Reading block t of a whole-array function through window 2. -/
theorem read2 (t : Fin cfg0.N) (G : Mat 50000 64) :
    (((cfg0.win 2).blk t).view.read (Elt Ideal) G : Mat 5000 64) = blkRows t.val (lt_ten t) G :=
  funext fun y => congrArg G (emb2 t y)

/-- What point t writes back through window 2 is block t of the specification's function of the arrays the region
    finds. -/
theorem flushed2 (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x64) origin]
  refine (funext fun j => ?_ : k0_pay1 (iblk0 V c 0 t) (iblk0 V c 1 t) = mm (iblk0 V c 0 t) (iblk0 V c 1 t)).trans ?_
  · obtain ⟨p, q, rfl⟩ : ∃ (p : Fin 5000) (q : Fin 64), j = ix2 p q := ⟨j 0, j 1, eq_ix2 j⟩
    exact Pay.pay0 _ _ p q
  · exact mm_of_blocks t.val (lt_ten t) (in0 V c t) (in1 V c t) (read2 t)

/-- An index of the array is in point t's block iff each coordinate is in the block's range on its axis. -/
theorem mem_blk2 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v29).slice (win0_2.rect t)).set ↔ _
  rw [View.set_slice_whole, Rect.mem_set_unit]
  exact Iff.rfl

/-- Every row lies in the block of the point its number divided by 5000 names: the ten blocks tile the array. -/
theorem cover2 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨hlt, hlo, hhi⟩ := row_block (i 0).val hi0
  have hN : (i 0).val / 5000 < grid0.N := by rw [N_0]; exact hlt
  obtain ⟨e00, e01, e10, e11, e20, e21⟩ := index_maps (⟨(i 0).val / 5000, hN⟩ : Fin cfg0.N)
  refine ⟨⟨(i 0).val / 5000, hN⟩, flush0_2 _, ?_⟩
  rw [mem_blk2]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e20]; exact ⟨hlo, hhi⟩
  | ⟨1, _⟩ =>
    show win0_2.index ⟨(i 0).val / 5000, hN⟩ (1 : Fin 2) * 64 ≤ (i 1).val ∧ (i 1).val < win0_2.index ⟨(i 0).val / 5000, hN⟩ (1 : Fin 2) * 64 + 64
    rw [e21]; omega

/-- The array behind window 2 after the region: the specification's function of the arrays the region finds. -/
theorem final2 (c : Dev nD) : (dat0 V c).arrAt 2 cfg0.N = mm (V c main_arg0) (V c main_arg2) :=
  (dat0 V c).arrAt_eq_of_cover 2 _ (fun t _ => flushed2 V c t) cover2

end Cert.KernelIdeal.Reg0

end
-- ==== Proof.Region1.lean ====
/-
  The second region: bias, the residual linear branch and the second layer's linear transform, ten blocks of 5000 rows.

  At point t the body adds the first bias row to rows 5000 t … 5000 t + 4999 of the aggregated features, multiplies the
  sum by the residual weights and adds the residual bias row (first result), and multiplies the positive part of the sum
  by the second layer's weights (second result).  Each step acts row by row, so the written blocks are the blocks of the
  whole-array functions, and they tile both results.
-/
import proofs.«156356_j46986942218444_1_alg».proof.Proof.Gen.KernelIdeal.Frame
import proofs.«156356_j46986942218444_1_alg».proof.Proof.Payloads

set_option maxRecDepth 16384

noncomputable section

namespace Cert.KernelIdeal.Reg1

open Cert.KernelIdeal Cert.KernelIdeal.Gen Cert.Spec
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The grid has ten points. -/
theorem lt_ten (t : Fin cfg1.N) : t.val < 10 := by
  have h : t.val < grid1.N := t.isLt
  rw [N_1] at h; exact h

/-- The printed index maps, decided over the ten grid points: a row-blocked window's block index is (t, 0), a window
    that holds its whole array stays at block (0, 0). -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Window 0's block at point t holds rows 5000 t … 5000 t + 4999 of its array. -/
theorem emb0 (t : Fin cfg1.N) (y : S5000x64.Idx) :
    ((cfg1.win 0).blk t).view.emb y = ix2 (rowAt t.val (lt_ten t) (y 0)) (y 1) := by
  obtain ⟨e00, e01, e10, e11, e20, e21, e30, e31, e40, e41, e50, e51, e60, e61⟩ := index_maps t
  funext a; apply Fin.ext
  match a with
  | ⟨0, _⟩ => show win1_0.index t (0 : Fin 2) * 5000 + 1 * (y 0).val = t.val * 5000 + (y 0).val; omega
  | ⟨1, _⟩ => show win1_0.index t (1 : Fin 2) * 64 + 1 * (y 1).val = (y 1).val; omega

/-- Window 1's block is its whole array at every point. -/
theorem emb1 (t : Fin cfg1.N) (y : S1x64.Idx) : ((cfg1.win 1).blk t).view.emb y = y := by
  obtain ⟨e00, e01, e10, e11, e20, e21, e30, e31, e40, e41, e50, e51, e60, e61⟩ := index_maps t
  funext a; apply Fin.ext
  match a with
  | ⟨0, _⟩ => show win1_1.index t (0 : Fin 2) * 1 + 1 * (y 0).val = (y 0).val; omega
  | ⟨1, _⟩ => show win1_1.index t (1 : Fin 2) * 64 + 1 * (y 1).val = (y 1).val; omega

/-- Window 2's block is its whole array at every point. -/
theorem emb2 (t : Fin cfg1.N) (y : S64x128.Idx) : ((cfg1.win 2).blk t).view.emb y = y := by
  obtain ⟨e00, e01, e10, e11, e20, e21, e30, e31, e40, e41, e50, e51, e60, e61⟩ := index_maps t
  funext a; apply Fin.ext
  match a with
  | ⟨0, _⟩ => show win1_2.index t (0 : Fin 2) * 64 + 1 * (y 0).val = (y 0).val; omega
  | ⟨1, _⟩ => show win1_2.index t (1 : Fin 2) * 128 + 1 * (y 1).val = (y 1).val; omega

/-- Window 3's block is its whole array at every point. -/
theorem emb3 (t : Fin cfg1.N) (y : S1x128.Idx) : ((cfg1.win 3).blk t).view.emb y = y := by
  obtain ⟨e00, e01, e10, e11, e20, e21, e30, e31, e40, e41, e50, e51, e60, e61⟩ := index_maps t
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4's block is its whole array at every point. -/
theorem emb4 (t : Fin cfg1.N) (y : S64x128.Idx) : ((cfg1.win 4).blk t).view.emb y = y := by
  obtain ⟨e00, e01, e10, e11, e20, e21, e30, e31, e40, e41, e50, e51, e60, e61⟩ := index_maps t
  funext a; apply Fin.ext
  match a with
  | ⟨0, _⟩ => show win1_4.index t (0 : Fin 2) * 64 + 1 * (y 0).val = (y 0).val; omega
  | ⟨1, _⟩ => show win1_4.index t (1 : Fin 2) * 128 + 1 * (y 1).val = (y 1).val; omega

/-- Window 5's block at point t holds rows 5000 t … 5000 t + 4999 of its array. -/
theorem emb5 (t : Fin cfg1.N) (y : S5000x128.Idx) :
    ((cfg1.win 5).blk t).view.emb y = ix2 (rowAt t.val (lt_ten t) (y 0)) (y 1) := by
  obtain ⟨e00, e01, e10, e11, e20, e21, e30, e31, e40, e41, e50, e51, e60, e61⟩ := index_maps t
  funext a; apply Fin.ext
  match a with
  | ⟨0, _⟩ => show win1_5.index t (0 : Fin 2) * 5000 + 1 * (y 0).val = t.val * 5000 + (y 0).val; omega
  | ⟨1, _⟩ => show win1_5.index t (1 : Fin 2) * 128 + 1 * (y 1).val = (y 1).val; omega

/-- Window 6's block at point t holds rows 5000 t … 5000 t + 4999 of its array. -/
theorem emb6 (t : Fin cfg1.N) (y : S5000x128.Idx) :
    ((cfg1.win 6).blk t).view.emb y = ix2 (rowAt t.val (lt_ten t) (y 0)) (y 1) := by
  obtain ⟨e00, e01, e10, e11, e20, e21, e30, e31, e40, e41, e50, e51, e60, e61⟩ := index_maps t
  funext a; apply Fin.ext
  match a with
  | ⟨0, _⟩ => show win1_6.index t (0 : Fin 2) * 5000 + 1 * (y 0).val = t.val * 5000 + (y 0).val; omega
  | ⟨1, _⟩ => show win1_6.index t (1 : Fin 2) * 128 + 1 * (y 1).val = (y 1).val; omega

theorem in0 (c : Dev nD) (t : Fin cfg1.N) :
    (iblk1 V c 0 t : Mat 5000 64) = blkRows t.val (lt_ten t) (V c main_v42) :=
  funext fun y => congrArg (V c main_v42) (emb0 t y)

theorem in1 (c : Dev nD) (t : Fin cfg1.N) : (iblk1 V c 1 t : Mat 1 64) = V c main_v43 :=
  funext fun y => congrArg (V c main_v43) (emb1 t y)

theorem in2 (c : Dev nD) (t : Fin cfg1.N) : (iblk1 V c 2 t : Mat 64 128) = V c main_arg4 :=
  funext fun y => congrArg (V c main_arg4) (emb2 t y)

theorem in3 (c : Dev nD) (t : Fin cfg1.N) : (iblk1 V c 3 t : Mat 1 128) = V c main_v44 :=
  funext fun y => congrArg (V c main_v44) (emb3 t y)

theorem in4 (c : Dev nD) (t : Fin cfg1.N) : (iblk1 V c 4 t : Mat 64 128) = V c main_arg6 :=
  funext fun y => congrArg (V c main_arg6) (emb4 t y)

/-- Reading block t of a whole-array function through window 5. -/
theorem read5 (t : Fin cfg1.N) (G : Mat 50000 128) :
    (((cfg1.win 5).blk t).view.read (Elt Ideal) G : Mat 5000 128) = blkRows t.val (lt_ten t) G :=
  funext fun y => congrArg G (emb5 t y)

/-- What point t writes back through window 5 is block t of the specification's function of the arrays the region
    finds. -/
theorem flushed5 (c : Dev nD) (t : Fin cfg1.N) :
    (dat1 V c).flushed 5 t = ((cfg1.win 5).blk t).view.read (Elt Ideal) (residual (V c main_v42) (V c main_v43) (V c main_arg4) (V c main_v44)) := by
  show (cfg1.win 5).cut (grid1.coords t) ((dat1 V c).after 5 t) = _
  rw [after1_5]
  unfold out1_5
  rw [View.canon_unit_zero origin]
  simp only [View.ld_unit_zero (S := S5000x64) origin, View.ld_unit_zero (S := S1x64) origin, View.ld_unit_zero (S := S64x128) origin, View.ld_unit_zero (S := S1x128) origin]
  refine (funext fun j => ?_ : k1_pay2 (iblk1 V c 0 t) (iblk1 V c 1 t) (iblk1 V c 2 t) (iblk1 V c 3 t) = residual (iblk1 V c 0 t) (iblk1 V c 1 t) (iblk1 V c 2 t) (iblk1 V c 3 t)).trans ?_
  · obtain ⟨p, q, rfl⟩ : ∃ (p : Fin 5000) (q : Fin 128), j = ix2 p q := ⟨j 0, j 1, eq_ix2 j⟩
    exact Pay.pay1_res _ _ _ _ p q
  · exact residual_of_blocks t.val (lt_ten t) (in0 V c t) (in1 V c t) (in2 V c t) (in3 V c t) (read5 t)

/-- An index of the array is in point t's block iff each coordinate is in the block's range on its axis. -/
theorem mem_blk5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45_0).slice (win1_5.rect t)).set ↔ _
  rw [View.set_slice_whole, Rect.mem_set_unit]
  exact Iff.rfl

/-- Every row lies in the block of the point its number divided by 5000 names: the ten blocks tile the array. -/
theorem cover5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨hlt, hlo, hhi⟩ := row_block (i 0).val hi0
  have hN : (i 0).val / 5000 < grid1.N := by rw [N_1]; exact hlt
  obtain ⟨e00, e01, e10, e11, e20, e21, e30, e31, e40, e41, e50, e51, e60, e61⟩ := index_maps (⟨(i 0).val / 5000, hN⟩ : Fin cfg1.N)
  refine ⟨⟨(i 0).val / 5000, hN⟩, flush1_5 _, ?_⟩
  rw [mem_blk5]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [e50]; exact ⟨hlo, hhi⟩
  | ⟨1, _⟩ =>
    show win1_5.index ⟨(i 0).val / 5000, hN⟩ (1 : Fin 2) * 128 ≤ (i 1).val ∧ (i 1).val < win1_5.index ⟨(i 0).val / 5000, hN⟩ (1 : Fin 2) * 128 + 128
    rw [e51]; omega

/-- The array behind window 5 after the region: the specification's function of the arrays the region finds. -/
theorem final5 (c : Dev nD) : (dat1 V c).arrAt 5 cfg1.N = residual (V c main_v42) (V c main_v43) (V c main_arg4) (V c main_v44) :=
  (dat1 V c).arrAt_eq_of_cover 5 _ (fun t _ => flushed5 V c t) cover5

/-- Reading block t of a whole-array function through window 6. -/
theorem read6 (t : Fin cfg1.N) (G : Mat 50000 128) :
    (((cfg1.win 6).blk t).view.read (Elt Ideal) G : Mat 5000 128) = blkRows t.val (lt_ten t) G :=
  funext fun y => congrArg G (emb6 t y)

/-- What point t writes back through window 6 is block t of the specification's function of the arrays the region
    finds. -/
theorem flushed6 (c : Dev nD) (t : Fin cfg1.N) :
    (dat1 V c).flushed 6 t = ((cfg1.win 6).blk t).view.read (Elt Ideal) (hidden (V c main_v42) (V c main_v43) (V c main_arg6)) := by
  show (cfg1.win 6).cut (grid1.coords t) ((dat1 V c).after 6 t) = _
  rw [after1_6]
  unfold out1_6
  rw [View.canon_unit_zero origin]
  simp only [View.ld_unit_zero (S := S5000x64) origin, View.ld_unit_zero (S := S1x64) origin, View.ld_unit_zero (S := S64x128) origin]
  refine (funext fun j => ?_ : k1_pay3 (iblk1 V c 0 t) (iblk1 V c 1 t) (iblk1 V c 4 t) = hidden (iblk1 V c 0 t) (iblk1 V c 1 t) (iblk1 V c 4 t)).trans ?_
  · obtain ⟨p, q, rfl⟩ : ∃ (p : Fin 5000) (q : Fin 128), j = ix2 p q := ⟨j 0, j 1, eq_ix2 j⟩
    exact Pay.pay1_hid _ _ _ p q
  · exact hidden_of_blocks t.val (lt_ten t) (in0 V c t) (in1 V c t) (in4 V c t) (read6 t)

/-- An index of the array is in point t's block iff each coordinate is in the block's range on its axis. -/
theorem mem_blk6 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v45_1).slice (win1_6.rect t)).set ↔ _
  rw [View.set_slice_whole, Rect.mem_set_unit]
  exact Iff.rfl

/-- Every row lies in the block of the point its number divided by 5000 names: the ten blocks tile the array. -/
theorem cover6 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨hlt, hlo, hhi⟩ := row_block (i 0).val hi0
  have hN : (i 0).val / 5000 < grid1.N := by rw [N_1]; exact hlt
  obtain ⟨e00, e01, e10, e11, e20, e21, e30, e31, e40, e41, e50, e51, e60, e61⟩ := index_maps (⟨(i 0).val / 5000, hN⟩ : Fin cfg1.N)
  refine ⟨⟨(i 0).val / 5000, hN⟩, flush1_6 _, ?_⟩
  rw [mem_blk6]
  intro a
  match a with
  | ⟨0, _⟩ =>
    show win1_6.index ⟨(i 0).val / 5000, hN⟩ (0 : Fin 2) * 5000 ≤ (i 0).val ∧ (i 0).val < win1_6.index ⟨(i 0).val / 5000, hN⟩ (0 : Fin 2) * 5000 + 5000
    rw [e60]; exact ⟨hlo, hhi⟩
  | ⟨1, _⟩ =>
    show win1_6.index ⟨(i 0).val / 5000, hN⟩ (1 : Fin 2) * 128 ≤ (i 1).val ∧ (i 1).val < win1_6.index ⟨(i 0).val / 5000, hN⟩ (1 : Fin 2) * 128 + 128
    rw [e61]; omega

/-- The array behind window 6 after the region: the specification's function of the arrays the region finds. -/
theorem final6 (c : Dev nD) : (dat1 V c).arrAt 6 cfg1.N = hidden (V c main_v42) (V c main_v43) (V c main_arg6) :=
  (dat1 V c).arrAt_eq_of_cover 6 _ (fun t _ => flushed6 V c t) cover6

end Cert.KernelIdeal.Reg1

end
-- ==== Proof.Region2.lean ====
/-
  The third region: the last sum, ten blocks of 5000 rows.

  At point t the body adds, on rows 5000 t … 5000 t + 4999, the second bias row to the aggregated features, then the node
  features, then the residual branch.  The sum is entry by entry, so the written blocks are the blocks of the whole sum,
  and they tile the result.
-/
import proofs.«156356_j46986942218444_1_alg».proof.Proof.Gen.KernelIdeal.Frame
import proofs.«156356_j46986942218444_1_alg».proof.Proof.Payloads

set_option maxRecDepth 16384

noncomputable section

namespace Cert.KernelIdeal.Reg2

open Cert.KernelIdeal Cert.KernelIdeal.Gen Cert.Spec
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The grid has ten points. -/
theorem lt_ten (t : Fin cfg2.N) : t.val < 10 := by
  have h : t.val < grid2.N := t.isLt
  rw [N_2] at h; exact h

/-- The printed index maps, decided over the ten grid points: a row-blocked window's block index is (t, 0), a window
    that holds its whole array stays at block (0, 0). -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Window 0's block at point t holds rows 5000 t … 5000 t + 4999 of its array. -/
theorem emb0 (t : Fin cfg2.N) (y : S5000x128.Idx) :
    ((cfg2.win 0).blk t).view.emb y = ix2 (rowAt t.val (lt_ten t) (y 0)) (y 1) := by
  obtain ⟨e00, e01, e10, e11, e20, e21, e30, e31, e40, e41⟩ := index_maps t
  funext a; apply Fin.ext
  match a with
  | ⟨0, _⟩ => show win2_0.index t (0 : Fin 2) * 5000 + 1 * (y 0).val = t.val * 5000 + (y 0).val; omega
  | ⟨1, _⟩ => show win2_0.index t (1 : Fin 2) * 128 + 1 * (y 1).val = (y 1).val; omega

/-- Window 1's block is its whole array at every point. -/
theorem emb1 (t : Fin cfg2.N) (y : S1x128.Idx) : ((cfg2.win 1).blk t).view.emb y = y := by
  obtain ⟨e00, e01, e10, e11, e20, e21, e30, e31, e40, e41⟩ := index_maps t
  funext a; apply Fin.ext
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- Window 2's block at point t holds rows 5000 t … 5000 t + 4999 of its array. -/
theorem emb2 (t : Fin cfg2.N) (y : S5000x128.Idx) :
    ((cfg2.win 2).blk t).view.emb y = ix2 (rowAt t.val (lt_ten t) (y 0)) (y 1) := by
  obtain ⟨e00, e01, e10, e11, e20, e21, e30, e31, e40, e41⟩ := index_maps t
  funext a; apply Fin.ext
  match a with
  | ⟨0, _⟩ => show win2_2.index t (0 : Fin 2) * 5000 + 1 * (y 0).val = t.val * 5000 + (y 0).val; omega
  | ⟨1, _⟩ => show win2_2.index t (1 : Fin 2) * 128 + 1 * (y 1).val = (y 1).val; omega

/-- Window 3's block at point t holds rows 5000 t … 5000 t + 4999 of its array. -/
theorem emb3 (t : Fin cfg2.N) (y : S5000x128.Idx) :
    ((cfg2.win 3).blk t).view.emb y = ix2 (rowAt t.val (lt_ten t) (y 0)) (y 1) := by
  obtain ⟨e00, e01, e10, e11, e20, e21, e30, e31, e40, e41⟩ := index_maps t
  funext a; apply Fin.ext
  match a with
  | ⟨0, _⟩ => show win2_3.index t (0 : Fin 2) * 5000 + 1 * (y 0).val = t.val * 5000 + (y 0).val; omega
  | ⟨1, _⟩ => show win2_3.index t (1 : Fin 2) * 128 + 1 * (y 1).val = (y 1).val; omega

/-- Window 4's block at point t holds rows 5000 t … 5000 t + 4999 of its array. -/
theorem emb4 (t : Fin cfg2.N) (y : S5000x128.Idx) :
    ((cfg2.win 4).blk t).view.emb y = ix2 (rowAt t.val (lt_ten t) (y 0)) (y 1) := by
  obtain ⟨e00, e01, e10, e11, e20, e21, e30, e31, e40, e41⟩ := index_maps t
  funext a; apply Fin.ext
  match a with
  | ⟨0, _⟩ => show win2_4.index t (0 : Fin 2) * 5000 + 1 * (y 0).val = t.val * 5000 + (y 0).val; omega
  | ⟨1, _⟩ => show win2_4.index t (1 : Fin 2) * 128 + 1 * (y 1).val = (y 1).val; omega

theorem in0 (c : Dev nD) (t : Fin cfg2.N) :
    (iblk2 V c 0 t : Mat 5000 128) = blkRows t.val (lt_ten t) (V c main_v58) :=
  funext fun y => congrArg (V c main_v58) (emb0 t y)

theorem in1 (c : Dev nD) (t : Fin cfg2.N) : (iblk2 V c 1 t : Mat 1 128) = V c main_v59 :=
  funext fun y => congrArg (V c main_v59) (emb1 t y)

theorem in2 (c : Dev nD) (t : Fin cfg2.N) :
    (iblk2 V c 2 t : Mat 5000 128) = blkRows t.val (lt_ten t) (V c main_arg0) :=
  funext fun y => congrArg (V c main_arg0) (emb2 t y)

theorem in3 (c : Dev nD) (t : Fin cfg2.N) :
    (iblk2 V c 3 t : Mat 5000 128) = blkRows t.val (lt_ten t) (V c main_v45_0) :=
  funext fun y => congrArg (V c main_v45_0) (emb3 t y)

/-- Reading block t of a whole-array function through window 4. -/
theorem read4 (t : Fin cfg2.N) (G : Mat 50000 128) :
    (((cfg2.win 4).blk t).view.read (Elt Ideal) G : Mat 5000 128) = blkRows t.val (lt_ten t) G :=
  funext fun y => congrArg G (emb4 t y)

/-- What point t writes back through window 4 is block t of the specification's function of the arrays the region
    finds. -/
theorem flushed4 (c : Dev nD) (t : Fin cfg2.N) :
    (dat2 V c).flushed 4 t = ((cfg2.win 4).blk t).view.read (Elt Ideal) (combine (V c main_v58) (V c main_v59) (V c main_arg0) (V c main_v45_0)) := by
  show (cfg2.win 4).cut (grid2.coords t) ((dat2 V c).after 4 t) = _
  rw [after2_4]
  unfold out2_4
  rw [View.canon_unit_zero origin]
  simp only [View.ld_unit_zero (S := S5000x128) origin, View.ld_unit_zero (S := S1x128) origin]
  refine (funext fun j => ?_ : k2_pay1 (iblk2 V c 0 t) (iblk2 V c 1 t) (iblk2 V c 2 t) (iblk2 V c 3 t) = combine (iblk2 V c 0 t) (iblk2 V c 1 t) (iblk2 V c 2 t) (iblk2 V c 3 t)).trans ?_
  · obtain ⟨p, q, rfl⟩ : ∃ (p : Fin 5000) (q : Fin 128), j = ix2 p q := ⟨j 0, j 1, eq_ix2 j⟩
    exact Pay.pay2 _ _ _ _ p q
  · exact combine_of_blocks t.val (lt_ten t) (in0 V c t) (in1 V c t) (in2 V c t) (in3 V c t) (read4 t)

/-- An index of the array is in point t's block iff each coordinate is in the block's range on its axis. -/
theorem mem_blk4 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v60).slice (win2_4.rect t)).set ↔ _
  rw [View.set_slice_whole, Rect.mem_set_unit]
  exact Iff.rfl

/-- Every row lies in the block of the point its number divided by 5000 names: the ten blocks tile the array. -/
theorem cover4 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  obtain ⟨hlt, hlo, hhi⟩ := row_block (i 0).val hi0
  have hN : (i 0).val / 5000 < grid2.N := by rw [N_2]; exact hlt
  obtain ⟨e00, e01, e10, e11, e20, e21, e30, e31, e40, e41⟩ := index_maps (⟨(i 0).val / 5000, hN⟩ : Fin cfg2.N)
  refine ⟨⟨(i 0).val / 5000, hN⟩, flush2_4 _, ?_⟩
  rw [mem_blk4]
  intro a
  match a with
  | ⟨0, _⟩ =>
    show win2_4.index ⟨(i 0).val / 5000, hN⟩ (0 : Fin 2) * 5000 ≤ (i 0).val ∧ (i 0).val < win2_4.index ⟨(i 0).val / 5000, hN⟩ (0 : Fin 2) * 5000 + 5000
    rw [e40]; exact ⟨hlo, hhi⟩
  | ⟨1, _⟩ =>
    show win2_4.index ⟨(i 0).val / 5000, hN⟩ (1 : Fin 2) * 128 ≤ (i 1).val ∧ (i 1).val < win2_4.index ⟨(i 0).val / 5000, hN⟩ (1 : Fin 2) * 128 + 128
    rw [e41]; omega

/-- The array behind window 4 after the region: the specification's function of the arrays the region finds. -/
theorem final4 (c : Dev nD) : (dat2 V c).arrAt 4 cfg2.N = combine (V c main_v58) (V c main_v59) (V c main_arg0) (V c main_v45_0) :=
  (dat2 V c).arrAt_eq_of_cover 4 _ (fun t _ => flushed4 V c t) cover4

end Cert.KernelIdeal.Reg2

end
-- ==== Proof.KernelWhole.lean ====
/-
  The idealized kernel's result as one function of the argument arrays.

  Between its three grid regions the program runs host operations: the graph's source and destination index vectors with
  the self loops appended, the symmetric normalisation coefficients, and, twice, an aggregation along the edges (gather
  the source rows, scale each by its edge's coefficient, scatter-add into the destination rows).  The regions compute the
  dense steps block by block.  Reading the boundaries' contents in order: the first region leaves the product of the
  features and the first weights; the first aggregation's result enters the second region, which leaves the residual
  branch and the second layer's linear transform; the second aggregation's result enters the third region, which leaves
  the last sum.  The aggregations are kept as the operations they are: the reference performs the same ones.
-/
import proofs.«156356_j46986942218444_1_alg».proof.Proof.Gen.KernelIdeal.Frame
import proofs.«156356_j46986942218444_1_alg».proof.Proof.Region0
import proofs.«156356_j46986942218444_1_alg».proof.Proof.Region1
import proofs.«156356_j46986942218444_1_alg».proof.Proof.Region2
import Idealize.ShloMosaic.Lib.StableHlo.Run
import Idealize.ShloMosaic.Lib.ValueLayout

set_option maxRecDepth 16384

noncomputable section

namespace Cert.KernelIdeal.Whole

open Cert.KernelIdeal Cert.KernelIdeal.Gen Cert.Spec
open Idealize.ShloMosaic Idealize.ShloMosaic.TcCoe Idealize.ShloMosaic.StableHlo Idealize.ShloMosaic.ValueIdx Idealize.SL.Sem

/-! ## The aggregation along the edges, as the host operations it is -/

/-- A destination index below zero is read from the end, as the printed gather's index normalisation does. -/
def wrap (s : Vec Ideal S850000 .i32) : Vec Ideal S850000 .i32 :=
  select (cmpi CmpIPredicate.slt s (broadcastInDim S850000 ![] bcast_S_S850000 (constantI S_ 32 0#32)))
    (addi s (broadcastInDim S850000 ![] bcast_S_S850000 (constantI S_ 32 50000#32))) s

/-- Gather the rows of a 64-column matrix at the sources, scale each by its edge's coefficient, scatter-add them into the
    destinations' rows of the zero matrix. -/
def agg64 (s d : Vec Ideal S850000 .i32) (nrm : Vec Ideal S850000 .f32) (H : Vec Ideal S50000x64 .f32) :
    Vec Ideal S50000x64 .f32 :=
  Host.scatterAdd (F := Ideal) scatter_S50000x64_S850000x1_S850000x64_1_0_0_1
    (broadcastInDim S50000x64 ![] bcast_S_S50000x64 (constant (F := Ideal) S_ .f32 0x00000000#32))
    (broadcastInDim S850000x1 ![0] bcast_S850000_S850000x1_0 d)
    (mulf
      (Host.gather gather_S50000x64_S850000x1_S850000x64_1_0_n_n_0_1_164 H
        (broadcastInDim S850000x1 ![0] bcast_S850000_S850000x1_0 (wrap s)))
      (broadcastInDim S850000x64 ![0, 1] bcast_S850000x1_S850000x64_0_1
        (broadcastInDim S850000x1 ![0] bcast_S850000_S850000x1_0 nrm)))

/-- The same aggregation on a 128-column matrix. -/
def agg128 (s d : Vec Ideal S850000 .i32) (nrm : Vec Ideal S850000 .f32) (H : Vec Ideal S50000x128 .f32) :
    Vec Ideal S50000x128 .f32 :=
  Host.scatterAdd (F := Ideal) scatter_S50000x128_S850000x1_S850000x128_1_0_0_1
    (broadcastInDim S50000x128 ![] bcast_S_S50000x128 (constant (F := Ideal) S_ .f32 0x00000000#32))
    (broadcastInDim S850000x1 ![0] bcast_S850000_S850000x1_0 d)
    (mulf
      (Host.gather gather_S50000x128_S850000x1_S850000x128_1_0_n_n_0_1_1128 H
        (broadcastInDim S850000x1 ![0] bcast_S850000_S850000x1_0 (wrap s)))
      (broadcastInDim S850000x128 ![0, 1] bcast_S850000x1_S850000x128_0_1
        (broadcastInDim S850000x1 ![0] bcast_S850000_S850000x1_0 nrm)))

/-- The whole program's result from the features x, the graph's three vectors and the six parameter arrays. -/
def result (x : Vec Ideal S50000x128 .f32) (s d : Vec Ideal S850000 .i32) (nrm : Vec Ideal S850000 .f32)
    (w1 : Vec Ideal S128x64 .f32) (b1 : Vec Ideal S64 .f32) (wl : Vec Ideal S64x128 .f32) (bl : Vec Ideal S128 .f32)
    (w2 : Vec Ideal S64x128 .f32) (b2 : Vec Ideal S128 .f32) : Vec Ideal S50000x128 .f32 :=
  combine (agg128 s d nrm (Spec.hidden (agg64 s d nrm (mm x w1)) (rowOf b1) w2)) (rowOf b2) x
    (residual (agg64 s d nrm (mm x w1)) (rowOf b1) wl (rowOf bl))

variable (m : (ℓ : Loc nD τ sig) → Buf (Elt Ideal) ℓ) (ρ : Dev nD → PrngReg)

/-! ## What a host stretch or a region leaves untouched -/

section Kept
variable (c : Dev nD)

-- the first stretch writes no argument
set_option maxHeartbeats 4000000 in
theorem k0_arg0 : W1 m ρ c (Proc.devRef .tc main_arg0) = m ((c : Thread nD τ).loc main_arg0) := by
  show StableHlo.after hostOps0 (W0 m ρ c) (Proc.devRef .tc main_arg0) = _
  dsimp only [hostOps0]; after_results_simp; all_goals rfl
set_option maxHeartbeats 4000000 in
theorem k0_arg2 : W1 m ρ c (Proc.devRef .tc main_arg2) = m ((c : Thread nD τ).loc main_arg2) := by
  show StableHlo.after hostOps0 (W0 m ρ c) (Proc.devRef .tc main_arg2) = _
  dsimp only [hostOps0]; after_results_simp; all_goals rfl
set_option maxHeartbeats 4000000 in
theorem k0_arg3 : W1 m ρ c (Proc.devRef .tc main_arg3) = m ((c : Thread nD τ).loc main_arg3) := by
  show StableHlo.after hostOps0 (W0 m ρ c) (Proc.devRef .tc main_arg3) = _
  dsimp only [hostOps0]; after_results_simp; all_goals rfl
set_option maxHeartbeats 4000000 in
theorem k0_arg4 : W1 m ρ c (Proc.devRef .tc main_arg4) = m ((c : Thread nD τ).loc main_arg4) := by
  show StableHlo.after hostOps0 (W0 m ρ c) (Proc.devRef .tc main_arg4) = _
  dsimp only [hostOps0]; after_results_simp; all_goals rfl
set_option maxHeartbeats 4000000 in
theorem k0_arg5 : W1 m ρ c (Proc.devRef .tc main_arg5) = m ((c : Thread nD τ).loc main_arg5) := by
  show StableHlo.after hostOps0 (W0 m ρ c) (Proc.devRef .tc main_arg5) = _
  dsimp only [hostOps0]; after_results_simp; all_goals rfl
set_option maxHeartbeats 4000000 in
theorem k0_arg6 : W1 m ρ c (Proc.devRef .tc main_arg6) = m ((c : Thread nD τ).loc main_arg6) := by
  show StableHlo.after hostOps0 (W0 m ρ c) (Proc.devRef .tc main_arg6) = _
  dsimp only [hostOps0]; after_results_simp; all_goals rfl
set_option maxHeartbeats 4000000 in
theorem k0_arg7 : W1 m ρ c (Proc.devRef .tc main_arg7) = m ((c : Thread nD τ).loc main_arg7) := by
  show StableHlo.after hostOps0 (W0 m ρ c) (Proc.devRef .tc main_arg7) = _
  dsimp only [hostOps0]; after_results_simp; all_goals rfl

/-! ## The second stretch: what it keeps, and what it computes -/

set_option maxHeartbeats 4000000 in
theorem k1_arg0 : W3 m ρ c (Proc.devRef .tc main_arg0) = W2 m ρ c (Proc.devRef .tc main_arg0) := by
  show StableHlo.after hostOps1 (W2 m ρ c) (Proc.devRef .tc main_arg0) = _
  dsimp only [hostOps1]; after_results_simp; all_goals rfl
set_option maxHeartbeats 4000000 in
theorem k1_arg4 : W3 m ρ c (Proc.devRef .tc main_arg4) = W2 m ρ c (Proc.devRef .tc main_arg4) := by
  show StableHlo.after hostOps1 (W2 m ρ c) (Proc.devRef .tc main_arg4) = _
  dsimp only [hostOps1]; after_results_simp; all_goals rfl
set_option maxHeartbeats 4000000 in
theorem k1_arg6 : W3 m ρ c (Proc.devRef .tc main_arg6) = W2 m ρ c (Proc.devRef .tc main_arg6) := by
  show StableHlo.after hostOps1 (W2 m ρ c) (Proc.devRef .tc main_arg6) = _
  dsimp only [hostOps1]; after_results_simp; all_goals rfl
set_option maxHeartbeats 4000000 in
theorem k1_arg7 : W3 m ρ c (Proc.devRef .tc main_arg7) = W2 m ρ c (Proc.devRef .tc main_arg7) := by
  show StableHlo.after hostOps1 (W2 m ρ c) (Proc.devRef .tc main_arg7) = _
  dsimp only [hostOps1]; after_results_simp; all_goals rfl
set_option maxHeartbeats 4000000 in
theorem k1_v5 : W3 m ρ c (Proc.devRef .tc main_v5) = W2 m ρ c (Proc.devRef .tc main_v5) := by
  show StableHlo.after hostOps1 (W2 m ρ c) (Proc.devRef .tc main_v5) = _
  dsimp only [hostOps1]; after_results_simp; all_goals rfl
set_option maxHeartbeats 4000000 in
theorem k1_v6 : W3 m ρ c (Proc.devRef .tc main_v6) = W2 m ρ c (Proc.devRef .tc main_v6) := by
  show StableHlo.after hostOps1 (W2 m ρ c) (Proc.devRef .tc main_v6) = _
  dsimp only [hostOps1]; after_results_simp; all_goals rfl
set_option maxHeartbeats 4000000 in
theorem k1_v28 : W3 m ρ c (Proc.devRef .tc main_v28) = W2 m ρ c (Proc.devRef .tc main_v28) := by
  show StableHlo.after hostOps1 (W2 m ρ c) (Proc.devRef .tc main_v28) = _
  dsimp only [hostOps1]; after_results_simp; all_goals rfl

set_option maxHeartbeats 4000000 in
/-- The first aggregation, on what the first region left. -/
theorem s1_agg : W3 m ρ c (Proc.devRef .tc main_v42)
    = agg64 (W2 m ρ c (Proc.devRef .tc main_v5)) (W2 m ρ c (Proc.devRef .tc main_v6)) (W2 m ρ c (Proc.devRef .tc main_v28))
        (W2 m ρ c (Proc.devRef .tc main_v29)) := by
  show StableHlo.after hostOps1 (W2 m ρ c) (Proc.devRef .tc main_v42) = _
  dsimp only [hostOps1]; after_results_simp; all_goals rfl

set_option maxHeartbeats 4000000 in
/-- The two bias vectors recast as one-row matrices. -/
theorem s1_b1 : W3 m ρ c (Proc.devRef .tc main_v43)
    = shapeCast S1x64 (W2 m ρ c (Proc.devRef .tc main_arg3)) shapeCasts_S64_S1x64 := by
  show StableHlo.after hostOps1 (W2 m ρ c) (Proc.devRef .tc main_v43) = _
  dsimp only [hostOps1]; after_results_simp; all_goals rfl
set_option maxHeartbeats 4000000 in
theorem s1_bl : W3 m ρ c (Proc.devRef .tc main_v44)
    = shapeCast S1x128 (W2 m ρ c (Proc.devRef .tc main_arg5)) shapeCasts_S128_S1x128 := by
  show StableHlo.after hostOps1 (W2 m ρ c) (Proc.devRef .tc main_v44) = _
  dsimp only [hostOps1]; after_results_simp; all_goals rfl

/-! ## The third stretch -/

set_option maxHeartbeats 4000000 in
theorem k2_arg0 : W5 m ρ c (Proc.devRef .tc main_arg0) = W4 m ρ c (Proc.devRef .tc main_arg0) := by
  show StableHlo.after hostOps2 (W4 m ρ c) (Proc.devRef .tc main_arg0) = _
  dsimp only [hostOps2]; after_results_simp; all_goals rfl
set_option maxHeartbeats 4000000 in
theorem k2_v45_0 : W5 m ρ c (Proc.devRef .tc main_v45_0) = W4 m ρ c (Proc.devRef .tc main_v45_0) := by
  show StableHlo.after hostOps2 (W4 m ρ c) (Proc.devRef .tc main_v45_0) = _
  dsimp only [hostOps2]; after_results_simp; all_goals rfl

set_option maxHeartbeats 4000000 in
/-- The second aggregation, on what the second region left. -/
theorem s2_agg : W5 m ρ c (Proc.devRef .tc main_v58)
    = agg128 (W4 m ρ c (Proc.devRef .tc main_v5)) (W4 m ρ c (Proc.devRef .tc main_v6)) (W4 m ρ c (Proc.devRef .tc main_v28))
        (W4 m ρ c (Proc.devRef .tc main_v45_1)) := by
  show StableHlo.after hostOps2 (W4 m ρ c) (Proc.devRef .tc main_v58) = _
  dsimp only [hostOps2]; after_results_simp; all_goals rfl
set_option maxHeartbeats 4000000 in
theorem s2_b2 : W5 m ρ c (Proc.devRef .tc main_v59)
    = shapeCast S1x128 (W4 m ρ c (Proc.devRef .tc main_arg7)) shapeCasts_S128_S1x128 := by
  show StableHlo.after hostOps2 (W4 m ρ c) (Proc.devRef .tc main_v59) = _
  dsimp only [hostOps2]; after_results_simp; all_goals rfl

/-! ## A vector recast as a one-row matrix is that row -/

theorem row_cast64 (v : Vec Ideal S64 .f32) : shapeCast S1x64 v shapeCasts_S64_S1x64 = rowOf v := by
  funext y
  obtain ⟨u, k, rfl⟩ : ∃ (u : Fin 1) (k : Fin 64), y = ix2 u k := ⟨y 0, y 1, eq_ix2 y⟩
  exact shapeCast_a_1a_apply v shapeCasts_S64_S1x64 u k
theorem row_cast128 (v : Vec Ideal S128 .f32) : shapeCast S1x128 v shapeCasts_S128_S1x128 = rowOf v := by
  funext y
  obtain ⟨u, k, rfl⟩ : ∃ (u : Fin 1) (k : Fin 128), y = ix2 u k := ⟨y 0, y 1, eq_ix2 y⟩
  exact shapeCast_a_1a_apply v shapeCasts_S128_S1x128 u k

/-! ## The boundaries' contents, in order -/

/-- The graph's source vector, destination vector and coefficients, as the first stretch computes them. -/
abbrev src : Vec Ideal S850000 .i32 := W1 m ρ c (Proc.devRef .tc main_v5)
abbrev dst : Vec Ideal S850000 .i32 := W1 m ρ c (Proc.devRef .tc main_v6)
abbrev coef : Vec Ideal S850000 .f32 := W1 m ρ c (Proc.devRef .tc main_v28)

/-- After the first region: the product of the features and the first weights. -/
theorem after_r0 : W2 m ρ c (Proc.devRef .tc main_v29)
    = mm (m ((c : Thread nD τ).loc main_arg0)) (m ((c : Thread nD τ).loc main_arg2)) :=
  (W2_arr m ρ c 2).trans ((Reg0.final2 (V1 m ρ) c).trans (congrArg₂ mm (k0_arg0 m ρ c) (k0_arg2 m ρ c)))

/-- The first aggregation. -/
theorem agg1 : W3 m ρ c (Proc.devRef .tc main_v42)
    = agg64 (src m ρ c) (dst m ρ c) (coef m ρ c) (mm (m ((c : Thread nD τ).loc main_arg0)) (m ((c : Thread nD τ).loc main_arg2))) :=
  (s1_agg m ρ c).trans (congr4 agg64 (W2_of_ne m ρ c main_v5 (by decide)) (W2_of_ne m ρ c main_v6 (by decide))
    (W2_of_ne m ρ c main_v28 (by decide)) (after_r0 m ρ c))

theorem b1_row : W3 m ρ c (Proc.devRef .tc main_v43) = rowOf (m ((c : Thread nD τ).loc main_arg3)) :=
  (s1_b1 m ρ c).trans ((congrArg (fun v => shapeCast S1x64 v shapeCasts_S64_S1x64)
    ((W2_of_ne m ρ c main_arg3 (by decide)).trans (k0_arg3 m ρ c))).trans (row_cast64 _))

theorem bl_row : W3 m ρ c (Proc.devRef .tc main_v44) = rowOf (m ((c : Thread nD τ).loc main_arg5)) :=
  (s1_bl m ρ c).trans ((congrArg (fun v => shapeCast S1x128 v shapeCasts_S128_S1x128)
    ((W2_of_ne m ρ c main_arg5 (by decide)).trans (k0_arg5 m ρ c))).trans (row_cast128 _))

theorem wl_kept : W3 m ρ c (Proc.devRef .tc main_arg4) = m ((c : Thread nD τ).loc main_arg4) :=
  (k1_arg4 m ρ c).trans ((W2_of_ne m ρ c main_arg4 (by decide)).trans (k0_arg4 m ρ c))

theorem w2_kept : W3 m ρ c (Proc.devRef .tc main_arg6) = m ((c : Thread nD τ).loc main_arg6) :=
  (k1_arg6 m ρ c).trans ((W2_of_ne m ρ c main_arg6 (by decide)).trans (k0_arg6 m ρ c))

/-- After the second region: the residual branch … -/
theorem after_r1_res : W4 m ρ c (Proc.devRef .tc main_v45_0)
    = residual (agg64 (src m ρ c) (dst m ρ c) (coef m ρ c) (mm (m ((c : Thread nD τ).loc main_arg0)) (m ((c : Thread nD τ).loc main_arg2))))
        (rowOf (m ((c : Thread nD τ).loc main_arg3))) (m ((c : Thread nD τ).loc main_arg4)) (rowOf (m ((c : Thread nD τ).loc main_arg5))) :=
  (W4_arr m ρ c 5).trans ((Reg1.final5 (V3 m ρ) c).trans
    (congr4 residual (agg1 m ρ c) (b1_row m ρ c) (wl_kept m ρ c) (bl_row m ρ c)))

/-- … and the second layer's linear transform. -/
theorem after_r1_hid : W4 m ρ c (Proc.devRef .tc main_v45_1)
    = Spec.hidden (agg64 (src m ρ c) (dst m ρ c) (coef m ρ c) (mm (m ((c : Thread nD τ).loc main_arg0)) (m ((c : Thread nD τ).loc main_arg2))))
        (rowOf (m ((c : Thread nD τ).loc main_arg3))) (m ((c : Thread nD τ).loc main_arg6)) :=
  (W4_arr m ρ c 6).trans ((Reg1.final6 (V3 m ρ) c).trans
    (congr3 Spec.hidden (agg1 m ρ c) (b1_row m ρ c) (w2_kept m ρ c)))

/-- The graph's vectors reach the third stretch unchanged. -/
theorem src_kept : W4 m ρ c (Proc.devRef .tc main_v5) = src m ρ c :=
  (W4_of_ne m ρ c main_v5 (by decide)).trans ((k1_v5 m ρ c).trans (W2_of_ne m ρ c main_v5 (by decide)))
theorem dst_kept : W4 m ρ c (Proc.devRef .tc main_v6) = dst m ρ c :=
  (W4_of_ne m ρ c main_v6 (by decide)).trans ((k1_v6 m ρ c).trans (W2_of_ne m ρ c main_v6 (by decide)))
theorem coef_kept : W4 m ρ c (Proc.devRef .tc main_v28) = coef m ρ c :=
  (W4_of_ne m ρ c main_v28 (by decide)).trans ((k1_v28 m ρ c).trans (W2_of_ne m ρ c main_v28 (by decide)))

theorem b2_row : W5 m ρ c (Proc.devRef .tc main_v59) = rowOf (m ((c : Thread nD τ).loc main_arg7)) :=
  (s2_b2 m ρ c).trans ((congrArg (fun v => shapeCast S1x128 v shapeCasts_S128_S1x128)
    ((W4_of_ne m ρ c main_arg7 (by decide)).trans ((k1_arg7 m ρ c).trans
      ((W2_of_ne m ρ c main_arg7 (by decide)).trans (k0_arg7 m ρ c))))).trans (row_cast128 _))

theorem x_kept : W5 m ρ c (Proc.devRef .tc main_arg0) = m ((c : Thread nD τ).loc main_arg0) :=
  (k2_arg0 m ρ c).trans ((W4_of_ne m ρ c main_arg0 (by decide)).trans ((k1_arg0 m ρ c).trans
    (((W2_arr m ρ c 0).trans (((dat0 (V1 m ρ) c).arrAt_in 0 rfl _).trans (A_eq0 (V1 m ρ) c 0))).trans (k0_arg0 m ρ c))))

/-- THE RESULT ARRAY after the run: the specification's function of the arguments and the graph's three vectors. -/
theorem whole : W6 m ρ c (Proc.devRef .tc main_v60)
    = result (m ((c : Thread nD τ).loc main_arg0)) (src m ρ c) (dst m ρ c) (coef m ρ c)
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) :=
  (W6_arr m ρ c 4).trans ((Reg2.final4 (V5 m ρ) c).trans
    (congr4 combine
      ((s2_agg m ρ c).trans (congr4 agg128 (src_kept m ρ c) (dst_kept m ρ c) (coef_kept m ρ c) (after_r1_hid m ρ c)))
      (b2_row m ρ c) (x_kept m ρ c) ((k2_v45_0 m ρ c).trans (after_r1_res m ρ c))))

end Kept

end Cert.KernelIdeal.Whole

end
-- ==== Proof.RefStages.lean ====
/-
  The reference's stages as the specification's functions of the stages before them.

  The reference is host operations only.  Its matrix products, broadcast bias rows, positive part and last sum are read
  entry by entry; its two aggregations (a gather along the edges, a scaling, a scatter-add) are left as they are: the
  kernel performs the same operations on the same operands.
-/
import proofs.«156356_j46986942218444_1_alg».proof.Proof.Gen.ReferenceIdeal.Read
import proofs.«156356_j46986942218444_1_alg».proof.Proof.Spec

noncomputable section

open scoped BigOperators

namespace Cert.ReferenceIdeal.RefValue

open Cert.ReferenceIdeal Cert.ReferenceIdeal.Read Cert.Spec
open Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S128x64, .f32⟩ : BufTy).Contents (Elt Ideal)) (x3 : (⟨S64, .f32⟩ : BufTy).Contents (Elt Ideal))
  (x4 : (⟨S64x128, .f32⟩ : BufTy).Contents (Elt Ideal)) (x5 : (⟨S128, .f32⟩ : BufTy).Contents (Elt Ideal))
  (x6 : (⟨S64x128, .f32⟩ : BufTy).Contents (Elt Ideal)) (x7 : (⟨S128, .f32⟩ : BufTy).Contents (Elt Ideal))

/-- The first layer's linear transform is the product of the features and the weights. -/
theorem v4_eq : val_main_v4 (F := Ideal) x0 x2 = mm x0 x2 := by
  funext i
  obtain ⟨p, o, rfl⟩ : ∃ (p : Fin 50000) (o : Fin 64), i = ix2 p o := ⟨i 0, i 1, eq_ix2 i⟩
  rw [val_main_v4_apply]
  have hl : ∀ k : Fin 128, lidx_main_v4 (ix2 p o) k = ix2 p k := fun k => funext fun a => by
    match a with
    | ⟨0, _⟩ => rfl
    | ⟨1, _⟩ => rfl
  have hr : ∀ k : Fin 128, ridx_main_v4 (ix2 p o) k = ix2 k o := fun k => funext fun a => by
    match a with
    | ⟨0, _⟩ => rfl
    | ⟨1, _⟩ => rfl
  simp only [hl, hr]
  rfl

/-- The first bias, broadcast over the rows, added to the aggregated features. -/
theorem v45_eq : val_main_v45 (F := Ideal) x0 x1 x2 x3 = addRow (val_main_v42 (F := Ideal) x0 x1 x2) (rowOf x3) := by
  funext i
  obtain ⟨p, k, rfl⟩ : ∃ (p : Fin 50000) (k : Fin 64), i = ix2 p k := ⟨i 0, i 1, eq_ix2 i⟩
  have h : idx_main_v43 (idx_main_v44 (ix2 p k)) = ix1 k := funext fun a => by
    match a with
    | ⟨0, _⟩ => rfl
  rw [val_main_v45_apply, val_main_v44_apply, val_main_v43_apply, h]
  generalize val_main_v42 (F := Ideal) x0 x1 x2 = A
  rfl

/-- The residual branch: the biased features times the residual weights, plus the residual bias row. -/
theorem v49_eq : val_main_v49 (F := Ideal) x0 x1 x2 x3 x4 x5
    = residual (val_main_v42 (F := Ideal) x0 x1 x2) (rowOf x3) x4 (rowOf x5) := by
  funext i
  obtain ⟨p, o, rfl⟩ : ∃ (p : Fin 50000) (o : Fin 128), i = ix2 p o := ⟨i 0, i 1, eq_ix2 i⟩
  rw [val_main_v49_apply, val_main_v46_apply, val_main_v48_apply, val_main_v47_apply, v45_eq]
  generalize val_main_v42 (F := Ideal) x0 x1 x2 = A
  have hl : ∀ k : Fin 64, lidx_main_v46 (ix2 p o) k = ix2 p k := fun k => funext fun a => by
    match a with
    | ⟨0, _⟩ => rfl
    | ⟨1, _⟩ => rfl
  have hr : ∀ k : Fin 64, ridx_main_v46 (ix2 p o) k = ix2 k o := fun k => funext fun a => by
    match a with
    | ⟨0, _⟩ => rfl
    | ⟨1, _⟩ => rfl
  have h : idx_main_v47 (idx_main_v48 (ix2 p o)) = ix1 o := funext fun a => by
    match a with
    | ⟨0, _⟩ => rfl
  simp only [hl, hr, h]
  rfl

/-- The positive part of the biased features. -/
theorem v50_eq : val_main_v50 (F := Ideal) x0 x1 x2 x3 = relu (addRow (val_main_v42 (F := Ideal) x0 x1 x2) (rowOf x3)) := by
  funext i
  obtain ⟨p, k, rfl⟩ : ∃ (p : Fin 50000) (k : Fin 64), i = ix2 p k := ⟨i 0, i 1, eq_ix2 i⟩
  rw [val_main_v50_apply, v45_eq, val_main_call0_v0_apply, val_main_call0_cst_apply]
  generalize val_main_v42 (F := Ideal) x0 x1 x2 = A
  rfl

/-- The second layer's linear transform of the positive part of the biased features. -/
theorem v51_eq : val_main_v51 (F := Ideal) x0 x1 x2 x3 x6
    = Spec.hidden (val_main_v42 (F := Ideal) x0 x1 x2) (rowOf x3) x6 := by
  funext i
  obtain ⟨p, o, rfl⟩ : ∃ (p : Fin 50000) (o : Fin 128), i = ix2 p o := ⟨i 0, i 1, eq_ix2 i⟩
  have hl : ∀ k : Fin 64, lidx_main_v51 (ix2 p o) k = ix2 p k := fun k => funext fun a => by
    match a with
    | ⟨0, _⟩ => rfl
    | ⟨1, _⟩ => rfl
  have hr : ∀ k : Fin 64, ridx_main_v51 (ix2 p o) k = ix2 k o := fun k => funext fun a => by
    match a with
    | ⟨0, _⟩ => rfl
    | ⟨1, _⟩ => rfl
  rw [val_main_v51_apply, v50_eq]
  generalize val_main_v42 (F := Ideal) x0 x1 x2 = A
  simp only [hl, hr]
  rfl

/-- The result: the second aggregation plus its bias row, plus the features, plus the residual branch. -/
theorem v94_eq : val_main_v94 (F := Ideal) x0 x1 x2 x3 x4 x5 x6 x7
    = combine (val_main_v89 (F := Ideal) x0 x1 x2 x3 x6) (rowOf x7) x0 (val_main_v49 (F := Ideal) x0 x1 x2 x3 x4 x5) := by
  funext i
  obtain ⟨p, o, rfl⟩ : ∃ (p : Fin 50000) (o : Fin 128), i = ix2 p o := ⟨i 0, i 1, eq_ix2 i⟩
  rw [val_main_v94_apply, val_main_v93_apply, val_main_v92_apply, val_main_v91_apply, val_main_v90_apply]
  have h : idx_main_v90 (idx_main_v91 (ix2 p o)) = ix1 o := funext fun a => by
    match a with
    | ⟨0, _⟩ => rfl
  rw [h]
  generalize val_main_v89 (F := Ideal) x0 x1 x2 x3 x6 = B
  generalize val_main_v49 (F := Ideal) x0 x1 x2 x3 x4 x5 = Y
  rfl

end Cert.ReferenceIdeal.RefValue

end
-- ==== Proof.Bridge.lean ====
/-
  The two programs compute one function of the arguments.

  The reference's graph vectors, coefficients and aggregations are the very host operations the kernel performs, so its
  result is the kernel's function once its dense stages are read as the specification's: the first product, the residual
  branch and the second layer's linear transform inside the aggregations, and the last sum outside.  The reference
  recomputes the graph's vectors and coefficients for its second layer; the operations and operands are the first
  layer's, so the two copies are one value.
-/
import proofs.«156356_j46986942218444_1_alg».proof.Proof.KernelWhole
import proofs.«156356_j46986942218444_1_alg».proof.Proof.RefStages

set_option maxRecDepth 16384

noncomputable section

namespace Cert.Bridge

open Cert.Spec Cert.KernelIdeal.Whole Cert.ReferenceIdeal.RefValue
open Idealize.ShloMosaic Idealize.ShloMosaic.TcCoe Idealize.ShloMosaic.StableHlo Idealize.SL.Sem

section Reference
open Cert.ReferenceIdeal Cert.ReferenceIdeal.Read

variable (x0 : (⟨S50000x128, .f32⟩ : BufTy).Contents (Elt Ideal)) (x1 : (⟨S2x800000, .i32⟩ : BufTy).Contents (Elt Ideal))
  (x2 : (⟨S128x64, .f32⟩ : BufTy).Contents (Elt Ideal)) (x3 : (⟨S64, .f32⟩ : BufTy).Contents (Elt Ideal))
  (x4 : (⟨S64x128, .f32⟩ : BufTy).Contents (Elt Ideal)) (x5 : (⟨S128, .f32⟩ : BufTy).Contents (Elt Ideal))
  (x6 : (⟨S64x128, .f32⟩ : BufTy).Contents (Elt Ideal)) (x7 : (⟨S128, .f32⟩ : BufTy).Contents (Elt Ideal))

/-- The reference's first aggregation is the kernel's, on the reference's own graph vectors and first product. -/
theorem ref_agg1 : val_main_v42 (F := Ideal) x0 x1 x2
    = agg64 (val_main_v6 (F := Ideal) x1) (val_main_v7 (F := Ideal) x1) (val_main_v29 (F := Ideal) x1) (val_main_v4 (F := Ideal) x0 x2) := rfl

/-- The second layer's copies of the graph vectors and coefficients are the first layer's. -/
theorem src_again : val_main_v53 (F := Ideal) x1 = val_main_v6 (F := Ideal) x1 := rfl
theorem dst_again : val_main_v54 (F := Ideal) x1 = val_main_v7 (F := Ideal) x1 := rfl
theorem coef_again : val_main_v76 (F := Ideal) x1 = val_main_v29 (F := Ideal) x1 := rfl

/-- The reference's second aggregation is the kernel's, on its second layer's graph vectors and linear transform. -/
theorem ref_agg2 : val_main_v89 (F := Ideal) x0 x1 x2 x3 x6
    = agg128 (val_main_v53 (F := Ideal) x1) (val_main_v54 (F := Ideal) x1) (val_main_v76 (F := Ideal) x1)
        (val_main_v51 (F := Ideal) x0 x1 x2 x3 x6) := rfl

/-- THE REFERENCE'S RESULT is the kernel's function of the arguments and of the reference's own graph vectors. -/
theorem ref_result : val_main_v94 (F := Ideal) x0 x1 x2 x3 x4 x5 x6 x7
    = result x0 (val_main_v6 (F := Ideal) x1) (val_main_v7 (F := Ideal) x1) (val_main_v29 (F := Ideal) x1) x2 x3 x4 x5 x6 x7 := by
  have hA : val_main_v42 (F := Ideal) x0 x1 x2
      = agg64 (val_main_v6 (F := Ideal) x1) (val_main_v7 (F := Ideal) x1) (val_main_v29 (F := Ideal) x1) (mm x0 x2) :=
    (ref_agg1 x0 x1 x2).trans (congrArg (agg64 _ _ _) (v4_eq x0 x2))
  have hH := (v51_eq x0 x1 x2 x3 x6).trans (congr3 Spec.hidden hA rfl rfl)
  have hB := (ref_agg2 x0 x1 x2 x3 x6).trans (congr4 agg128 (src_again x1) (dst_again x1) (coef_again x1) hH)
  have hY := (v49_eq x0 x1 x2 x3 x4 x5).trans (congr4 residual hA rfl rfl rfl)
  exact (v94_eq x0 x1 x2 x3 x4 x5 x6 x7).trans (congr4 combine hB rfl rfl hY)

end Reference

/-! ## The kernel's graph vectors are the reference's stages of the edge list -/

section Kernel
open Cert.KernelIdeal Cert.KernelIdeal.Gen

variable (m : (ℓ : Loc nD τ sig) → Buf (Elt Ideal) ℓ) (ρ : Dev nD → PrngReg) (c : Dev nD)

set_option maxHeartbeats 8000000 in
/-- The source vector: the edge list's first row with the self loops appended. -/
theorem src_eq : src m ρ c = Cert.ReferenceIdeal.Read.val_main_v6 (F := Ideal) (m ((c : Thread nD τ).loc main_arg1)) := by
  show StableHlo.after hostOps0 (W0 m ρ c) (Proc.devRef .tc main_v5) = _
  dsimp only [hostOps0]; after_results_simp; all_goals rfl

set_option maxHeartbeats 8000000 in
/-- The destination vector: the edge list's second row with the self loops appended. -/
theorem dst_eq : dst m ρ c = Cert.ReferenceIdeal.Read.val_main_v7 (F := Ideal) (m ((c : Thread nD τ).loc main_arg1)) := by
  show StableHlo.after hostOps0 (W0 m ρ c) (Proc.devRef .tc main_v6) = _
  dsimp only [hostOps0]; after_results_simp; all_goals rfl

set_option maxHeartbeats 8000000 in
/-- The symmetric normalisation coefficients: the inverse square roots of the clamped in-degrees at an edge's two ends,
    multiplied. -/
theorem coef_eq : coef m ρ c = Cert.ReferenceIdeal.Read.val_main_v29 (F := Ideal) (m ((c : Thread nD τ).loc main_arg1)) := by
  show StableHlo.after hostOps0 (W0 m ρ c) (Proc.devRef .tc main_v28) = _
  dsimp only [hostOps0]; after_results_simp; all_goals rfl

/-- THE KERNEL'S RESULT is the reference's result stage of the same arguments. -/
theorem kernel_eq_ref :
    result (m ((c : Thread nD τ).loc main_arg0)) (src m ρ c) (dst m ρ c) (coef m ρ c)
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
      = Cert.ReferenceIdeal.Read.val_main_v94 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) :=
  (congr3 (fun s d n => result (m ((c : Thread nD τ).loc main_arg0)) s d n
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)))
      (src_eq m ρ c) (dst_eq m ρ c) (coef_eq m ρ c)).trans
    (ref_result _ _ _ _ _ _ _ _).symm

end Kernel

end Cert.Bridge

end
-- ==== Proof.lean ====
/-
  A two-layer graph convolution with a residual linear branch, as three row-tiled kernels among host operations, against
  the plain reference, over the extended reals.

  Both programs build the same graph vectors (sources and destinations with self loops, symmetric normalisation
  coefficients) and aggregate along the edges with the same gather, scaling and scatter-add.  The kernel computes the
  dense steps — the first product, the bias with the residual branch and the second layer's product, the last sum — in
  ten blocks of 5000 node rows; each step acts row by row, so the blocks are the blocks of the whole-array functions
  (Region0 … Region2 over Payloads and Spec).  Read through the boundaries between regions and host stretches
  (KernelWhole) the kernel's result is one function of the arguments; the reference's stages are the same function
  (RefStages, Bridge).  The two products differ only in being blocked, and a change of float format is the identity at the
  ideal values, so no algebraic law beyond the definitions is used and no entry needs to be finite.  The ideal pass rewrote
  nothing, so that claim is trivial.
-/
import proofs.«156356_j46986942218444_1_alg».proof.Defs
import proofs.«156356_j46986942218444_1_alg».proof.Proof.Gen.Kernel
import proofs.«156356_j46986942218444_1_alg».proof.Proof.Gen.Kernel.Skeleton
import proofs.«156356_j46986942218444_1_alg».proof.Proof.Gen.Kernel.Launch
import proofs.«156356_j46986942218444_1_alg».proof.Proof.Gen.Kernel.Points
import proofs.«156356_j46986942218444_1_alg».proof.Proof.Gen.Kernel.Frame
import proofs.«156356_j46986942218444_1_alg».proof.Proof.Gen.KernelIdeal
import proofs.«156356_j46986942218444_1_alg».proof.Proof.Gen.KernelIdeal.Skeleton
import proofs.«156356_j46986942218444_1_alg».proof.Proof.Gen.KernelIdeal.Launch
import proofs.«156356_j46986942218444_1_alg».proof.Proof.Gen.KernelIdeal.Points
import proofs.«156356_j46986942218444_1_alg».proof.Proof.Gen.KernelIdeal.Frame
import proofs.«156356_j46986942218444_1_alg».proof.Proof.Gen.ReferenceIdeal
import proofs.«156356_j46986942218444_1_alg».proof.Proof.Gen.ReferenceIdeal.Run
import proofs.«156356_j46986942218444_1_alg».proof.Proof.Gen.ReferenceIdeal.Read
import proofs.«156356_j46986942218444_1_alg».proof.Proof.Gen.Pre_finite_inputs
import proofs.«156356_j46986942218444_1_alg».proof.Proof.KernelRun
import proofs.«156356_j46986942218444_1_alg».proof.Proof.KernelWhole
import proofs.«156356_j46986942218444_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : @Cert.frame_Kernel Cert.Kernel.Gen.facts Cert.Pre_finite_inputs.Gen.facts :=
  fun m ρ _ => Cert.Kernel.Gen.frame m ρ

/-- The idealized kernel runs and keeps its arguments. -/
theorem frame_ki : @Cert.frame_KernelIdeal Cert.KernelIdeal.Gen.facts Cert.Pre_finite_inputs.Gen.facts :=
  fun m ρ _ => Cert.KernelIdeal.Gen.frame m ρ

/-- The reference runs and keeps its arguments: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories agreeing on the arguments both programs end with the same result array. -/
theorem algebraic : @Cert.algebraic_KernelIdeal_ReferenceIdeal Cert.KernelIdeal.Gen.facts Cert.ReferenceIdeal.Gen.facts
    Cert.Pre_finite_inputs.Gen.facts := by
  intro m ρ m' ρ' _ hagree
  -- the kernel's run, its result read through the boundaries
  refine ⟨_, (θ_run Cert.KernelIdeal.defs _ _).mono
      (fun _ h c => ⟨(h c).1.trans (Cert.KernelIdeal.Whole.whole m ρ c), (h c).2⟩)
      (Cert.KernelIdeal.Run.run_value (F := Ideal) m ρ), ?_⟩
  -- the reference's run, its result stage by stage
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v94_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Bridge.kernel_eq_ref m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
